-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x29 : Shape := ⟨2, ![50000, 29]⟩
abbrev S2x800000 : Shape := ⟨2, ![2, 800000]⟩
abbrev S29x96 : Shape := ⟨2, ![29, 96]⟩
abbrev S96 : Shape := ⟨1, ![96]⟩
abbrev S96x128 : Shape := ⟨2, ![96, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x29 : S_.BroadcastsInDim S50000x29 (![] : Fin 0 → Fin S50000x29.rank)
  reducesTo_S50000x29_S_d0_1 : S50000x29.ReducesTo [0, 1] S_
  h_S_ : 0 < S_.numel
  bcast_S_S29x96 : S_.BroadcastsInDim S29x96 (![] : Fin 0 → Fin S29x96.rank)
  reducesTo_S29x96_S_d0_1 : S29x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x32 .f32) (main_arg9 : FVec F S32 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x29 .f32) (main_arg1 : IVec S2x800000 32) (main_arg2 : FVec F S29x96 .f32) (main_arg3 : FVec F S96 .f32) (main_arg4 : FVec F S96x128 .f32) (main_arg5 : FVec F S128 .f32) (main_arg6 : FVec F S128x64 .f32) (main_arg7 : FVec F S64 .f32) (main_arg8 : FVec F S64x32 .f32) (main_arg9 : FVec F S32 .f32) : IVec S_ 1 :=
  let main_v0 : FVec F S50000x29 .f32 := Host.absf main_arg0
  let main_cst : FVec F S_ .f32 := constant S_ .f32 0x7F800000#32
  let main_v1 : FVec F S50000x29 .f32 := broadcastInDim S50000x29 ![] bcast_S_S50000x29 main_cst
  let main_v2 : IVec S50000x29 1 := cmpf .olt main_v0 main_v1
  let main_c : IVec S_ 1 := constantI S_ 1 1#1
  let main_v3 : IVec S_ 1 := (fun x v => Host.reduce IntOp.andi x v reducesTo_S50000x29_S_d0_1 h_S_) main_v2 main_c
  let main_v4 : FVec F S29x96 .f32 := Host.absf main_arg2
  let main_cst_0 : FVec F S_ .f32 := constant S_ .f32 0x7F800000#32
  let main_v5 : FVec F S29x96 .f32 := broadcastInDim S29x96 ![] bcast_S_S29x96 main_cst_0
  let main_v6 : IVec S29x96 1 := cmpf .olt main_v4 main_v5
  let main_c_1 : IVec S_ 1 := constantI S_ 1 1#1
  let main_v7 : IVec S_ 1 := (fun x v => Host.reduce IntOp.andi x v reducesTo_S29x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x128 .f32 := Host.absf main_arg4
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg5 main_arg6 main_arg7 main_arg8 main_arg9 main_v13 main_v16
-- ==== Kernel.lean ====
abbrev S50000x29 : Shape := ⟨2, ![50000, 29]⟩
abbrev S2x800000 : Shape := ⟨2, ![2, 800000]⟩
abbrev S29x96 : Shape := ⟨2, ![29, 96]⟩
abbrev S96 : Shape := ⟨1, ![96]⟩
abbrev S96x128 : Shape := ⟨2, ![96, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x29 : Shape := ⟨2, ![5000, 29]⟩
abbrev S5000x96 : Shape := ⟨2, ![5000, 96]⟩
abbrev S850000x96 : Shape := ⟨2, ![850000, 96]⟩
abbrev S1x96 : Shape := ⟨2, ![1, 96]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 136
  | .vmem => 20
  | .smem => 0
  | _ => 0

abbrev hbmTy0_0 (i : Nat) : BufTy := match i % 128 with
  | 0 => ⟨S50000x29, .f32⟩
  | 1 => ⟨S2x800000, .i32⟩
  | 2 => ⟨S29x96, .f32⟩
  | 3 => ⟨S96, .f32⟩
  | 4 => ⟨S96x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x96, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x96, .f32⟩
  | 63 => ⟨S850000x1, .f32⟩
  | 64 => ⟨S850000x96, .f32⟩
  | 65 => ⟨S850000x96, .f32⟩
  | 66 => ⟨S_, .f32⟩
  | 67 => ⟨S50000x96, .f32⟩
  | 68 => ⟨S850000x1, .i32⟩
  | 69 => ⟨S50000x96, .f32⟩
  | 70 => ⟨S1x96, .f32⟩
  | 71 => ⟨S50000x96, .f32⟩
  | 72 => ⟨S50000x96, .f32⟩
  | 73 => ⟨S_, .f32⟩
  | 74 => ⟨S50000x96, .f32⟩
  | 75 => ⟨S50000x96, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S50000x64, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x64, .f32⟩
  | 106 => ⟨S850000x1, .f32⟩
  | 107 => ⟨S850000x64, .f32⟩
  | 108 => ⟨S850000x64, .f32⟩
  | 109 => ⟨S_, .f32⟩
  | 110 => ⟨S50000x64, .f32⟩
  | 111 => ⟨S850000x1, .i32⟩
  | 112 => ⟨S50000x64, .f32⟩
  | 113 => ⟨S1x64, .f32⟩
  | 114 => ⟨S50000x64, .f32⟩
  | 115 => ⟨S50000x64, .f32⟩
  | 116 => ⟨S50000x32, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x32, .f32⟩
  | 126 => ⟨S850000x1, .f32⟩
  | 127 => ⟨S850000x32, .f32⟩
  | _ => ⟨S50000x29, .f32⟩

abbrev hbmTy0_1 (i : Nat) : BufTy := match i % 128 with
  | 0 => ⟨S850000x32, .f32⟩
  | 1 => ⟨S_, .f32⟩
  | 2 => ⟨S50000x32, .f32⟩
  | 3 => ⟨S850000x1, .i32⟩
  | 4 => ⟨S50000x32, .f32⟩
  | 5 => ⟨S1x32, .f32⟩
  | 6 => ⟨S50000x32, .f32⟩
  | 7 => ⟨S50000x32, .f32⟩
  | _ => ⟨S50000x29, .f32⟩

abbrev hbmTy (i : Nat) : BufTy := match i / 128 with
  | 0 => hbmTy0_0 i
  | 1 => hbmTy0_1 i
  | _ => ⟨S50000x29, .f32⟩

abbrev bufTy : (tb : Table) → Fin (tcTables nBuf tb) → BufTy
  | .hbm, ⟨i, _⟩ => hbmTy i
  | .local _ .vmem, ⟨0, _⟩ => ⟨S5000x29, .f32⟩
  | .local _ .vmem, ⟨1, _⟩ => ⟨S5000x29, .f32⟩
  | .local _ .vmem, ⟨2, _⟩ => ⟨S29x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x32, .f32⟩
  | .local _ .vmem, ⟨18, _⟩ => ⟨S5000x32, .f32⟩
  | .local _ .vmem, ⟨19, _⟩ => ⟨S5000x32, .f32⟩
  | _, _ => ⟨S50000x29, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_c_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x29 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S29x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x29_S5000x29_0_0 : ∀ a, (![0, 0] : Fin 2 → Nat) a + S5000x29.size a ≤ S5000x29.size a
  h_S5000x29 : 0 < S5000x29.numel
  bitsLt_bf16_f32 : FTy.bits .bf16 < FTy.bits .f32
  inb_S29x96_S29x96_0_0 : ∀ a, (![0, 0] : Fin 2 → Nat) a + S29x96.size a ≤ S29x96.size a
  h_S29x96 : 0 < S29x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x29_S29x96_S5000x96_1_0_0_1_n_n_wf : DotDims.WF S5000x29 S29x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x128_S5000x128_1_0_0_1_n_n_wf : DotDims.WF S5000x96 S96x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x29.size a ≤ S50000x29.size a
  hwx0_0 : ∀ i : grid0.Coords, EltTy.bits .f32 = 32 ∨ (Rect.block (s := S50000x29) S5000x29.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S29x96.size a ≤ S29x96.size a
  hwx0_1 : ∀ i : grid0.Coords, EltTy.bits .f32 = 32 ∨ (Rect.block (s := S29x96) S29x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x128.size a ≤ S96x128.size a
  hwx1_1 : ∀ i : grid1.Coords, EltTy.bits .f32 = 32 ∨ (Rect.block (s := S96x128) S96x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x29_S29x96_S5000x96_1_0_0_1_n_n : DotDims S5000x29 S29x96 S5000x96 where
  lhsContracting := [1]
  rhsContracting := [0]
  lhsNonContracting := [0]
  rhsNonContracting := [1]
  lhsBatch := []
  rhsBatch := []
  wf := dot_S5000x29_S29x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x29.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S29x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x29 : Shape := ⟨2, ![50000, 29]⟩
abbrev S2x800000 : Shape := ⟨2, ![2, 800000]⟩
abbrev S29x96 : Shape := ⟨2, ![29, 96]⟩
abbrev S96 : Shape := ⟨1, ![96]⟩
abbrev S96x128 : Shape := ⟨2, ![96, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 136
  | .vmem => 0
  | .smem => 0
  | _ => 0

abbrev hbmTy0_0 (i : Nat) : BufTy := match i % 128 with
  | 0 => ⟨S50000x29, .f32⟩
  | 1 => ⟨S2x800000, .i32⟩
  | 2 => ⟨S29x96, .f32⟩
  | 3 => ⟨S96, .f32⟩
  | 4 => ⟨S96x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x96, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x96, .f32⟩
  | 63 => ⟨S850000x1, .f32⟩
  | 64 => ⟨S850000x96, .f32⟩
  | 65 => ⟨S850000x96, .f32⟩
  | 66 => ⟨S_, .f32⟩
  | 67 => ⟨S50000x96, .f32⟩
  | 68 => ⟨S850000x1, .i32⟩
  | 69 => ⟨S50000x96, .f32⟩
  | 70 => ⟨S1x96, .f32⟩
  | 71 => ⟨S50000x96, .f32⟩
  | 72 => ⟨S50000x96, .f32⟩
  | 73 => ⟨S_, .f32⟩
  | 74 => ⟨S50000x96, .f32⟩
  | 75 => ⟨S50000x96, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S50000x64, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x64, .f32⟩
  | 106 => ⟨S850000x1, .f32⟩
  | 107 => ⟨S850000x64, .f32⟩
  | 108 => ⟨S850000x64, .f32⟩
  | 109 => ⟨S_, .f32⟩
  | 110 => ⟨S50000x64, .f32⟩
  | 111 => ⟨S850000x1, .i32⟩
  | 112 => ⟨S50000x64, .f32⟩
  | 113 => ⟨S1x64, .f32⟩
  | 114 => ⟨S50000x64, .f32⟩
  | 115 => ⟨S50000x64, .f32⟩
  | 116 => ⟨S50000x32, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x32, .f32⟩
  | 126 => ⟨S850000x1, .f32⟩
  | 127 => ⟨S850000x32, .f32⟩
  | _ => ⟨S50000x29, .f32⟩

abbrev hbmTy0_1 (i : Nat) : BufTy := match i % 128 with
  | 0 => ⟨S850000x32, .f32⟩
  | 1 => ⟨S_, .f32⟩
  | 2 => ⟨S50000x32, .f32⟩
  | 3 => ⟨S850000x1, .i32⟩
  | 4 => ⟨S50000x32, .f32⟩
  | 5 => ⟨S1x32, .f32⟩
  | 6 => ⟨S50000x32, .f32⟩
  | 7 => ⟨S50000x32, .f32⟩
  | _ => ⟨S50000x29, .f32⟩

abbrev hbmTy (i : Nat) : BufTy := match i / 128 with
  | 0 => hbmTy0_0 i
  | 1 => hbmTy0_1 i
  | _ => ⟨S50000x29, .f32⟩

abbrev bufTy : (tb : Table) → Fin (tcTables nBuf tb) → BufTy
  | .hbm, ⟨i, _⟩ => hbmTy i
  | _, _ => ⟨S50000x29, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_c_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x29_S29x96_S50000x96_1_0_0_1_n_n_wf : DotDims.WF S50000x29 S29x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x128_S50000x128_1_0_0_1_n_n_wf : DotDims.WF S50000x96 S96x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x29_S29x96_S50000x96_1_0_0_1_n_n : DotDims S50000x29 S29x96 S50000x96 where
  lhsContracting := [1]
  rhsContracting := [0]
  lhsNonContracting := [0]
  rhsNonContracting := [1]
  lhsBatch := []
  rhsBatch := []
  wf := dot_S50000x29_S29x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.RunNamed.lean ====
/-
  The kernel program's run with its last buffer contents named.

  @main is twelve segments: five stretches of host operations (three of them around two outlined calls) and four
  pallas_calls between them. Every weakly fair execution of it terminates without a fault, and when it does every
  buffer that is not scoped to a kernel holds the contents the segments' fold leaves there: a host stretch rewrites
  the buffers its operations write, a pallas_call rewrites its result array with what its ten write-backs leave.
  The fold's last value is what the result buffer holds at the return; the four argument arrays and six biases and
  weights are written by nothing, so they walk back through the fold to the launch memory.
-/
import proofs.«118886_j19361712570396_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with the stated one, which takes
-- unfolding plain definitions in a metavariable's type
set_option backward.isDefEq.respectTransparency.types false in
/-- From any memory with zero counters every weakly fair execution of @main terminates, nothing faulting, in a state
    where every unscoped buffer `b` of core `c` holds the fold's last value `W12 m ρ c b`: whatever follows from
    that of the final memory (`hQ`) holds of it. -/
theorem run {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state: the cells' initial tokens, and nothing per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      -- each segment is entered from what the one before it leaves; the last leaves the buffers at `W12`
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch memory is the first segment's entry contents
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      -- the last thread state, read against the final memory
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The result buffer and the ten argument buffers are unscoped. -/
theorem mem_v100 : Proc.devRef .tc main_v100 ∈ Pipeline.ucRefs τ sig := mem_uc main_v100 (by decide)

end Cert.KernelIdeal.Named

end
-- ==== Proof.Kept.lean ====
/-
  What the layers share, and that the host stretches keep it.

  The edges' source nodes (row), their target nodes (col) and their weights (norm) are computed once, before the
  first pallas_call; the biases and the weights are arguments. No later host operation writes any of these buffers
  (each writes its own result buffer, a different one), so each stretch leaves them as it found them.
-/
import proofs.«118886_j19361712570396_1_alg».proof.Proof.Gen.KernelIdeal.Launch
import proofs.«118886_j19361712570396_1_alg».proof.Proof.RefRead
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo
open Cert.ReferenceIdeal.ReadP

/-- Closes `after ops W b = W b` for a literal stretch `ops` none of whose operations writes the buffer `b`: each
    operation writes its one result buffer, and that is another reference than `b` (decided). -/
macro "not_written" : tactic => `(tactic| (
  refine StableHlo.after_of_forall_not_mem _ _ (List.forall_iff_forall_mem.mp ?_)
  simp only [hostOps0, hostOps0_1, hostOps0_2, hostOps1, hostOps1_1, hostOps2, hostOps3, List.Forall,
    StableHlo.nullary_writes, StableHlo.unary_writes, StableHlo.binary_writes, StableHlo.ternary_writes,
    StableHlo.quaternary_writes, StableHlo.reshape_writes, Finset.mem_singleton]
  repeat' apply And.intro
  all_goals exact StableHlo.devRef_ne_of_ne (by decide)))

/-- What every layer shares, at buffer contents `W`: the edges' source nodes, their target nodes and their weights
    are the reference's stages of the edge list `x1`; the biases and the later layers' weights are `x3 … x9`. -/
structure Shared (W : Valuation τ sig (Elt Ideal)) (x1 : (⟨S2x800000, .i32⟩ : BufTy).Contents (Elt Ideal)) (x3 : (⟨S96, .f32⟩ : BufTy).Contents (Elt Ideal)) (x4 : (⟨S96x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) : Prop where
  row : W (Proc.devRef .tc main_v3) = val_main_v3 (F := Ideal) x1
  col : W (Proc.devRef .tc main_v6) = val_main_v6 (F := Ideal) x1
  norm : W (Proc.devRef .tc main_v31) = val_main_v31 (F := Ideal) x1
  b1 : W (Proc.devRef .tc main_arg3) = x3
  w2 : W (Proc.devRef .tc main_arg4) = x4
  b2 : W (Proc.devRef .tc main_arg5) = x5
  w3 : W (Proc.devRef .tc main_arg6) = x6
  b3 : W (Proc.devRef .tc main_arg7) = x7
  w4 : W (Proc.devRef .tc main_arg8) = x8
  b4 : W (Proc.devRef .tc main_arg9) = x9

/-! ## The stretches before the first pallas_call -/

/-- Row and col, once made by the first stretch, are kept by the outlined `where` and by the stretch after it. -/
theorem kept_0_1 (W : Valuation τ sig (Elt Ideal)) :
    after (hostOps0_1 (F := Ideal)) W (Proc.devRef .tc main_v3) = W (Proc.devRef .tc main_v3)
    ∧ after (hostOps0_1 (F := Ideal)) W (Proc.devRef .tc main_v6) = W (Proc.devRef .tc main_v6) :=
  ⟨by not_written, by not_written⟩
theorem kept_0_2 (W : Valuation τ sig (Elt Ideal)) :
    after (hostOps0_2 (F := Ideal)) W (Proc.devRef .tc main_v3) = W (Proc.devRef .tc main_v3)
    ∧ after (hostOps0_2 (F := Ideal)) W (Proc.devRef .tc main_v6) = W (Proc.devRef .tc main_v6) :=
  ⟨by not_written, by not_written⟩

/-- The arguments are written by none of the three. -/
theorem args_0 (W : Valuation τ sig (Elt Ideal)) :
    after (hostOps0_2 (F := Ideal)) (after (hostOps0_1 (F := Ideal)) (after (hostOps0 (F := Ideal)) W)) (Proc.devRef .tc main_arg0) = W (Proc.devRef .tc main_arg0)
    ∧ after (hostOps0_2 (F := Ideal)) (after (hostOps0_1 (F := Ideal)) (after (hostOps0 (F := Ideal)) W)) (Proc.devRef .tc main_arg2) = W (Proc.devRef .tc main_arg2)
    ∧ after (hostOps0_2 (F := Ideal)) (after (hostOps0_1 (F := Ideal)) (after (hostOps0 (F := Ideal)) W)) (Proc.devRef .tc main_arg3) = W (Proc.devRef .tc main_arg3)
    ∧ after (hostOps0_2 (F := Ideal)) (after (hostOps0_1 (F := Ideal)) (after (hostOps0 (F := Ideal)) W)) (Proc.devRef .tc main_arg4) = W (Proc.devRef .tc main_arg4)
    ∧ after (hostOps0_2 (F := Ideal)) (after (hostOps0_1 (F := Ideal)) (after (hostOps0 (F := Ideal)) W)) (Proc.devRef .tc main_arg5) = W (Proc.devRef .tc main_arg5)
    ∧ after (hostOps0_2 (F := Ideal)) (after (hostOps0_1 (F := Ideal)) (after (hostOps0 (F := Ideal)) W)) (Proc.devRef .tc main_arg6) = W (Proc.devRef .tc main_arg6)
    ∧ after (hostOps0_2 (F := Ideal)) (after (hostOps0_1 (F := Ideal)) (after (hostOps0 (F := Ideal)) W)) (Proc.devRef .tc main_arg7) = W (Proc.devRef .tc main_arg7)
    ∧ after (hostOps0_2 (F := Ideal)) (after (hostOps0_1 (F := Ideal)) (after (hostOps0 (F := Ideal)) W)) (Proc.devRef .tc main_arg8) = W (Proc.devRef .tc main_arg8)
    ∧ after (hostOps0_2 (F := Ideal)) (after (hostOps0_1 (F := Ideal)) (after (hostOps0 (F := Ideal)) W)) (Proc.devRef .tc main_arg9) = W (Proc.devRef .tc main_arg9) :=
  ⟨Eq.trans (by not_written) (Eq.trans (by not_written) (by not_written)),
   Eq.trans (by not_written) (Eq.trans (by not_written) (by not_written)),
   Eq.trans (by not_written) (Eq.trans (by not_written) (by not_written)),
   Eq.trans (by not_written) (Eq.trans (by not_written) (by not_written)),
   Eq.trans (by not_written) (Eq.trans (by not_written) (by not_written)),
   Eq.trans (by not_written) (Eq.trans (by not_written) (by not_written)),
   Eq.trans (by not_written) (Eq.trans (by not_written) (by not_written)),
   Eq.trans (by not_written) (Eq.trans (by not_written) (by not_written)),
   Eq.trans (by not_written) (Eq.trans (by not_written) (by not_written))⟩

/-! ## The stretches between the pallas_calls -/

/-- `hostOps1` writes none of them. -/
theorem Shared.hostOps1 {W : Valuation τ sig (Elt Ideal)} {x1 : (⟨S2x800000, .i32⟩ : BufTy).Contents (Elt Ideal)} {x3 : (⟨S96, .f32⟩ : BufTy).Contents (Elt Ideal)} {x4 : (⟨S96x128, .f32⟩ : BufTy).Contents (Elt Ideal)} {x5 : (⟨S128, .f32⟩ : BufTy).Contents (Elt Ideal)} {x6 : (⟨S128x64, .f32⟩ : BufTy).Contents (Elt Ideal)} {x7 : (⟨S64, .f32⟩ : BufTy).Contents (Elt Ideal)} {x8 : (⟨S64x32, .f32⟩ : BufTy).Contents (Elt Ideal)} {x9 : (⟨S32, .f32⟩ : BufTy).Contents (Elt Ideal)}
    (h : Shared W x1 x3 x4 x5 x6 x7 x8 x9) : Shared (after (hostOps1 (F := Ideal)) W) x1 x3 x4 x5 x6 x7 x8 x9 :=
  ⟨Eq.trans (by not_written) h.row,
   Eq.trans (by not_written) h.col,
   Eq.trans (by not_written) h.norm,
   Eq.trans (by not_written) h.b1,
   Eq.trans (by not_written) h.w2,
   Eq.trans (by not_written) h.b2,
   Eq.trans (by not_written) h.w3,
   Eq.trans (by not_written) h.b3,
   Eq.trans (by not_written) h.w4,
   Eq.trans (by not_written) h.b4⟩

/-- `hostOps1_1` writes none of them. -/
theorem Shared.hostOps1_1 {W : Valuation τ sig (Elt Ideal)} {x1 : (⟨S2x800000, .i32⟩ : BufTy).Contents (Elt Ideal)} {x3 : (⟨S96, .f32⟩ : BufTy).Contents (Elt Ideal)} {x4 : (⟨S96x128, .f32⟩ : BufTy).Contents (Elt Ideal)} {x5 : (⟨S128, .f32⟩ : BufTy).Contents (Elt Ideal)} {x6 : (⟨S128x64, .f32⟩ : BufTy).Contents (Elt Ideal)} {x7 : (⟨S64, .f32⟩ : BufTy).Contents (Elt Ideal)} {x8 : (⟨S64x32, .f32⟩ : BufTy).Contents (Elt Ideal)} {x9 : (⟨S32, .f32⟩ : BufTy).Contents (Elt Ideal)}
    (h : Shared W x1 x3 x4 x5 x6 x7 x8 x9) : Shared (after (hostOps1_1 (F := Ideal)) W) x1 x3 x4 x5 x6 x7 x8 x9 :=
  ⟨Eq.trans (by not_written) h.row,
   Eq.trans (by not_written) h.col,
   Eq.trans (by not_written) h.norm,
   Eq.trans (by not_written) h.b1,
   Eq.trans (by not_written) h.w2,
   Eq.trans (by not_written) h.b2,
   Eq.trans (by not_written) h.w3,
   Eq.trans (by not_written) h.b3,
   Eq.trans (by not_written) h.w4,
   Eq.trans (by not_written) h.b4⟩

/-- `hostOps2` writes none of them. -/
theorem Shared.hostOps2 {W : Valuation τ sig (Elt Ideal)} {x1 : (⟨S2x800000, .i32⟩ : BufTy).Contents (Elt Ideal)} {x3 : (⟨S96, .f32⟩ : BufTy).Contents (Elt Ideal)} {x4 : (⟨S96x128, .f32⟩ : BufTy).Contents (Elt Ideal)} {x5 : (⟨S128, .f32⟩ : BufTy).Contents (Elt Ideal)} {x6 : (⟨S128x64, .f32⟩ : BufTy).Contents (Elt Ideal)} {x7 : (⟨S64, .f32⟩ : BufTy).Contents (Elt Ideal)} {x8 : (⟨S64x32, .f32⟩ : BufTy).Contents (Elt Ideal)} {x9 : (⟨S32, .f32⟩ : BufTy).Contents (Elt Ideal)}
    (h : Shared W x1 x3 x4 x5 x6 x7 x8 x9) : Shared (after (hostOps2 (F := Ideal)) W) x1 x3 x4 x5 x6 x7 x8 x9 :=
  ⟨Eq.trans (by not_written) h.row,
   Eq.trans (by not_written) h.col,
   Eq.trans (by not_written) h.norm,
   Eq.trans (by not_written) h.b1,
   Eq.trans (by not_written) h.w2,
   Eq.trans (by not_written) h.b2,
   Eq.trans (by not_written) h.w3,
   Eq.trans (by not_written) h.b3,
   Eq.trans (by not_written) h.w4,
   Eq.trans (by not_written) h.b4⟩

/-- `hostOps3` writes none of them. -/
theorem Shared.hostOps3 {W : Valuation τ sig (Elt Ideal)} {x1 : (⟨S2x800000, .i32⟩ : BufTy).Contents (Elt Ideal)} {x3 : (⟨S96, .f32⟩ : BufTy).Contents (Elt Ideal)} {x4 : (⟨S96x128, .f32⟩ : BufTy).Contents (Elt Ideal)} {x5 : (⟨S128, .f32⟩ : BufTy).Contents (Elt Ideal)} {x6 : (⟨S128x64, .f32⟩ : BufTy).Contents (Elt Ideal)} {x7 : (⟨S64, .f32⟩ : BufTy).Contents (Elt Ideal)} {x8 : (⟨S64x32, .f32⟩ : BufTy).Contents (Elt Ideal)} {x9 : (⟨S32, .f32⟩ : BufTy).Contents (Elt Ideal)}
    (h : Shared W x1 x3 x4 x5 x6 x7 x8 x9) : Shared (after (hostOps3 (F := Ideal)) W) x1 x3 x4 x5 x6 x7 x8 x9 :=
  ⟨Eq.trans (by not_written) h.row,
   Eq.trans (by not_written) h.col,
   Eq.trans (by not_written) h.norm,
   Eq.trans (by not_written) h.b1,
   Eq.trans (by not_written) h.w2,
   Eq.trans (by not_written) h.b2,
   Eq.trans (by not_written) h.w3,
   Eq.trans (by not_written) h.b3,
   Eq.trans (by not_written) h.w4,
   Eq.trans (by not_written) h.b4⟩

end Cert.KernelIdeal.Stages

end
-- ==== Proof.Typed.lean ====
/-
  Typed references: moving a value between a buffer's own type and the type its reference carries.

  An operation of an outlined host function reads and writes its buffers through references that carry the tensor
  type of the value: a value is moved to the buffer's own type (a lookup in the signature) and back along the
  equation between the two. Along that equation nothing happens to the value: moving there and back is the identity,
  and moving a value one way gives the value it equals across the two types. These three facts are proved for ANY
  typed reference by taking it apart and substituting the equation, so they never look a type up.
-/
import Idealize.ShloMosaic.Lib.StableHlo

noncomputable section

namespace Cert.KernelIdeal.Typed

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, e, h2, h3⟩ := x
  subst e
  rfl

/-- A buffer's contents read at the carried type are the value they equal across the two types. -/
theorem ofBuf_eq (x : TRef sig T) (v : x.ref.ty.Contents Val) (v' : T.Contents Val) (h : HEq v v') : x.ofBuf v = v' := by
  obtain ⟨r, e, h2, h3⟩ := x
  subst e
  exact eq_of_heq h

/-- A value moved to the buffer's type is the contents it equals across the two types. -/
theorem toBuf_eq (x : TRef sig T) (v : T.Contents Val) (w : x.ref.ty.Contents Val) (h : HEq v w) : x.toBuf v = w := by
  obtain ⟨r, e, h2, h3⟩ := x
  subst e
  exact eq_of_heq h

end Cert.KernelIdeal.Typed

end
-- ==== Proof.Stages.lean ====
/-
  The host stretches of the kernel program, read at the buffers later code uses.

  Between its four pallas_calls the program runs on the host exactly the operations the reference runs between its
  four matrix products: the edge lists with their self loops (row, col), the degree of every node as a scatter-add
  of ones, the edge weight rsqrt(max(deg, 1)) at both ends multiplied (zero where the degree is zero), and per layer
  the gather of the transformed rows along the edges, the product with the edge weight, the scatter-add by target
  node and the bias (after layer 1 also the maximum with zero). So what each stretch leaves in the buffer the next
  pallas_call reads is the reference's stage function of the same name applied to what the stretch found: each lemma
  here reads a stretch's fold at one buffer (each operation's result at its own buffer is its function of its operands'
  contents, every other buffer is as before) and meets the reference's stage by unfolding. The stretches are stated
  over ANY buffer contents W the stretch starts from, with what W holds at the buffers the stretch reads as
  hypotheses.
-/
import proofs.«118886_j19361712570396_1_alg».proof.Proof.Gen.KernelIdeal.Launch
import proofs.«118886_j19361712570396_1_alg».proof.Proof.Kept
import proofs.«118886_j19361712570396_1_alg».proof.Proof.Typed
import proofs.«118886_j19361712570396_1_alg».proof.Proof.RefRead
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo
open Cert.ReferenceIdeal.ReadP Cert.KernelIdeal.Typed

/-! ## Before the first pallas_call: the graph -/

/-- The first stretch (up to the outlined `where`): row and col from the edge list, the degree's positivity mask and
    the reciprocal square root of the clamped degree. -/
theorem graph_a (W : Valuation τ sig (Elt Ideal)) (x1 : (⟨S2x800000, .i32⟩ : BufTy).Contents (Elt Ideal)) (h1 : W (Proc.devRef .tc main_arg1) = x1) :
    after (hostOps0 (F := Ideal)) W (Proc.devRef .tc main_v3) = val_main_v3 (F := Ideal) x1
    ∧ after (hostOps0 (F := Ideal)) W (Proc.devRef .tc main_v6) = val_main_v6 (F := Ideal) x1
    ∧ after (hostOps0 (F := Ideal)) W (Proc.devRef .tc main_v12) = val_main_v12 (F := Ideal) x1
    ∧ after (hostOps0 (F := Ideal)) W (Proc.devRef .tc main_v15) = val_main_v15 (F := Ideal) x1
    ∧ after (hostOps0 (F := Ideal)) W (Proc.devRef .tc main_cst_3) = val_main_cst_3 (F := Ideal) := by
  refine ⟨?_, ?_, ?_, ?_, ?_⟩
  · after_results; rw [h1]; rfl
  · after_results; rw [h1]; rfl
  · after_results; rw [h1]; rfl
  · after_results; rw [h1]; rfl
  · after_results; rfl

/-- The outlined `where`: the weight's factor per node, zero where the degree is zero. -/
theorem graph_b (W : Valuation τ sig (Elt Ideal)) (x1 : (⟨S2x800000, .i32⟩ : BufTy).Contents (Elt Ideal))
    (h12 : W (Proc.devRef .tc main_v12) = val_main_v12 (F := Ideal) x1) (h15 : W (Proc.devRef .tc main_v15) = val_main_v15 (F := Ideal) x1)
    (hc : W (Proc.devRef .tc main_cst_3) = val_main_cst_3 (F := Ideal)) :
    after (hostOps0_1 (F := Ideal)) W (Proc.devRef .tc main_v16) = val_main_v16 (F := Ideal) x1 := by
  after_results
  -- the outlined function's typed references: there and back is the identity; each buffer read is its value
  simp only [ofBuf_toBuf]
  rw [ofBuf_eq (TRef.of (T := ⟨S50000, .i1⟩) main_v12) _ _ (heq_of_eq h12), ofBuf_eq (TRef.of (T := ⟨S50000, .f32⟩) main_v15) _ _ (heq_of_eq h15),
    ofBuf_eq (TRef.of (T := ⟨S_, .f32⟩) main_cst_3) _ _ (heq_of_eq hc)]
  exact toBuf_eq (TRef.of (T := ⟨S50000, .f32⟩) main_v16) _ _ (heq_of_eq rfl)

/-- The stretch after it: the factor gathered at both ends of every edge, multiplied. -/
theorem graph_c (W : Valuation τ sig (Elt Ideal)) (x1 : (⟨S2x800000, .i32⟩ : BufTy).Contents (Elt Ideal))
    (h3 : W (Proc.devRef .tc main_v3) = val_main_v3 (F := Ideal) x1) (h6 : W (Proc.devRef .tc main_v6) = val_main_v6 (F := Ideal) x1)
    (h16 : W (Proc.devRef .tc main_v16) = val_main_v16 (F := Ideal) x1) :
    after (hostOps0_2 (F := Ideal)) W (Proc.devRef .tc main_v31) = val_main_v31 (F := Ideal) x1 := by
  after_results_simp; rw [h3, h6, h16]; rfl

/-! ## After each pallas_call: aggregate along the edges, add the bias -/

/-- Layer 1: gather the transformed rows at the edges' sources, weight them, scatter-add at the targets, add the bias. -/
theorem layer1 (W : Valuation τ sig (Elt Ideal)) (x0 : (⟨S50000x29, .f32⟩ : BufTy).Contents (Elt Ideal)) (x1 : (⟨S2x800000, .i32⟩ : BufTy).Contents (Elt Ideal)) (x2 : (⟨S29x96, .f32⟩ : BufTy).Contents (Elt Ideal)) (x3 : (⟨S96, .f32⟩ : BufTy).Contents (Elt Ideal)) (x4 : (⟨S96x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal))
    (hh : W (Proc.devRef .tc main_v32) = val_main_v32 (F := Ideal) x0 x2) (h : Shared W x1 x3 x4 x5 x6 x7 x8 x9) :
    after (hostOps1 (F := Ideal)) W (Proc.devRef .tc main_v48) = val_main_v48 (F := Ideal) x0 x1 x2 x3 := by
  after_results_simp; rw [hh, h.row, h.col, h.norm, h.b1]; rfl

/-- The outlined `relu` after layer 1. -/
theorem relu1 (W : Valuation τ sig (Elt Ideal)) (x0 : (⟨S50000x29, .f32⟩ : BufTy).Contents (Elt Ideal)) (x1 : (⟨S2x800000, .i32⟩ : BufTy).Contents (Elt Ideal)) (x2 : (⟨S29x96, .f32⟩ : BufTy).Contents (Elt Ideal)) (x3 : (⟨S96, .f32⟩ : BufTy).Contents (Elt Ideal))
    (h48 : W (Proc.devRef .tc main_v48) = val_main_v48 (F := Ideal) x0 x1 x2 x3) :
    after (hostOps1_1 (F := Ideal)) W (Proc.devRef .tc main_v49) = val_main_v49 (F := Ideal) x0 x1 x2 x3 := by
  after_results
  simp only [ofBuf_toBuf]
  rw [ofBuf_eq (TRef.of (T := ⟨S50000x96, .f32⟩) main_v48) _ _ (heq_of_eq h48)]
  exact toBuf_eq (TRef.of (T := ⟨S50000x96, .f32⟩) main_v49) _ _ (heq_of_eq rfl)

/-- Layer 2. -/
theorem layer2 (W : Valuation τ sig (Elt Ideal)) (x0 : (⟨S50000x29, .f32⟩ : BufTy).Contents (Elt Ideal)) (x1 : (⟨S2x800000, .i32⟩ : BufTy).Contents (Elt Ideal)) (x2 : (⟨S29x96, .f32⟩ : BufTy).Contents (Elt Ideal)) (x3 : (⟨S96, .f32⟩ : BufTy).Contents (Elt Ideal)) (x4 : (⟨S96x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal))
    (hh : W (Proc.devRef .tc main_v50) = val_main_v50 (F := Ideal) x0 x1 x2 x3 x4) (h : Shared W x1 x3 x4 x5 x6 x7 x8 x9) :
    after (hostOps2 (F := Ideal)) W (Proc.devRef .tc main_v66) = val_main_v66 (F := Ideal) x0 x1 x2 x3 x4 x5 := by
  after_results_simp; rw [hh, h.row, h.col, h.norm, h.b2]; rfl

/-- Layer 3. -/
theorem layer3 (W : Valuation τ sig (Elt Ideal)) (x0 : (⟨S50000x29, .f32⟩ : BufTy).Contents (Elt Ideal)) (x1 : (⟨S2x800000, .i32⟩ : BufTy).Contents (Elt Ideal)) (x2 : (⟨S29x96, .f32⟩ : BufTy).Contents (Elt Ideal)) (x3 : (⟨S96, .f32⟩ : BufTy).Contents (Elt Ideal)) (x4 : (⟨S96x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal))
    (hh : W (Proc.devRef .tc main_v67) = val_main_v67 (F := Ideal) x0 x1 x2 x3 x4 x5 x6) (h : Shared W x1 x3 x4 x5 x6 x7 x8 x9) :
    after (hostOps3 (F := Ideal)) W (Proc.devRef .tc main_v83) = val_main_v83 (F := Ideal) x0 x1 x2 x3 x4 x5 x6 x7 := by
  after_results_simp; rw [hh, h.row, h.col, h.norm, h.b3]; rfl

/-- Layer 4: the program's result. -/
theorem layer4 (W : Valuation τ sig (Elt Ideal)) (x0 : (⟨S50000x29, .f32⟩ : BufTy).Contents (Elt Ideal)) (x1 : (⟨S2x800000, .i32⟩ : BufTy).Contents (Elt Ideal)) (x2 : (⟨S29x96, .f32⟩ : BufTy).Contents (Elt Ideal)) (x3 : (⟨S96, .f32⟩ : BufTy).Contents (Elt Ideal)) (x4 : (⟨S96x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal))
    (hh : W (Proc.devRef .tc main_v84) = val_main_v84 (F := Ideal) x0 x1 x2 x3 x4 x5 x6 x7 x8) (h : Shared W x1 x3 x4 x5 x6 x7 x8 x9) :
    after (hostOps4 (F := Ideal)) W (Proc.devRef .tc main_v100) = val_main_v100 (F := Ideal) x0 x1 x2 x3 x4 x5 x6 x7 x8 x9 := by
  after_results_simp; rw [hh, h.row, h.col, h.norm, h.b4]; rfl

end Cert.KernelIdeal.Stages

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.Product.lean ====
/-
  The product of an M × K matrix with a K × N matrix over the extended reals, as one function of the result's index:
  entry (a, b) is the sum over c < K of A(a, c) · B(c, b). A contraction of the left operand's axis 1 with the right
  operand's axis 0 (no batch axis) IS this function, whether it is the host's `dot_general` or a matrix-unit product
  accumulated into zeros; no finiteness is asked, since nothing is regrouped: both are the same finite sum of the
  same products in the same order.
-/
import proofs.«118886_j19361712570396_1_alg».proof.Proof.LibPlainProduct

noncomputable section

open scoped BigOperators

namespace Cert.Product

open Idealize.ShloMosaic Idealize.ShloMosaic.ValueIdx Cert.LibPlainProduct

variable {M K N : Nat}

/-- Rows times columns: entry `i = (a, b)` of the product is `∑ c < K, A (a, c) * B (c, b)`. -/
def rowsTimes {φ₁ φ₂ : FTy} (A : FVec Ideal ⟨2, ![M, K]⟩ φ₁) (B : FVec Ideal ⟨2, ![K, N]⟩ φ₂) :
    (⟨2, ![M, N]⟩ : Shape).Idx → EReal :=
  fun i => ∑ c : Fin K, A (ix2 (i 0) c) * B (ix2 c (i 1))

theorem rowsTimes_apply {φ₁ φ₂ : FTy} (A : FVec Ideal ⟨2, ![M, K]⟩ φ₁) (B : FVec Ideal ⟨2, ![K, N]⟩ φ₂)
    (a : Fin M) (b : Fin N) : rowsTimes A B (ix2 a b) = ∑ c : Fin K, A (ix2 a c) * B (ix2 c b) := rfl

/-- The host's contraction of axis 1 with axis 0 is rows times columns, as whole arrays. -/
theorem dotGeneral_eq_rowsTimes {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) :
    Host.dotGeneral (plainDims w) prec A B = rowsTimes A B := by
  funext i
  obtain ⟨a, b, rfl⟩ : ∃ (a : Fin M) (b : Fin N), i = ix2 a b := ⟨i 0, i 1, eq_ix2 i⟩
  exact dotGeneral_plain_apply w prec A B a b

end Cert.Product

end
-- ==== Proof.Dense0.lean ====
/-
  Layer 1's dense transform, read off the pipeline: the array the first pallas_call leaves.

  The call walks ten grid points; point t stages rows 5000·t … 5000·t + 4999 of the left operand (a 50000 × 29 array)
  and the whole right operand (29 × 96), multiplies them on the matrix unit into a zero accumulator — the casts to
  bf16 on the way in are the identity on extended reals — and writes the 5000 × 96 tile back to the same rows of the
  result. So entry (r, q) of the result, which lies in point r / 5000's tile at row r % 5000, is
  ∑ k < 29, L (r, k) · R (k, q): the tiles are the restrictions of ONE function of the two operands, the plain
  matrix product, and the ten tiles cover the result. That function is what the host's `dot_general` computes.
-/
import proofs.«118886_j19361712570396_1_alg».proof.Proof.Gen.KernelIdeal.Frame
import proofs.«118886_j19361712570396_1_alg».proof.Proof.Gen.ReferenceIdeal
import proofs.«118886_j19361712570396_1_alg».proof.Proof.Product
import Idealize.ShloMosaic.Lib.Pipeline.Value

noncomputable section

open scoped BigOperators

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)
open Cert.Product

-- the buffers' contents when the call is entered (any contents: the call's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- One tile: the body's stored value at (p, q) is row p of the staged left block times column q of the right operand. -/
theorem tile_entry (x : Vec Ideal S5000x29 .f32) (w : Vec Ideal S29x96 .f32) (p : Fin 5000) (q : Fin 96) :
    k0_pay1 x w (ix2 p q) = ∑ k : Fin 29, x (ix2 p k) * w (ix2 k q) := by
  unfold k0_pay1
  exact Cert.LibPlainProduct.matmul_zero_plain_apply dot_S5000x29_S29x96_S5000x96_1_0_0_1_n_n_wf none _ _ p q

/-- Where the three windows' blocks sit at grid point t: the left operand's and the result's at block row t, column
    block 0; the right operand's always at its one block. Decided over the ten points. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the product of the two operands as the call finds them. -/
theorem written (c : Dev nD) (t : Fin cfg0.N) :
    (dat0 V c).flushed 2 t
      = ((cfg0.win 2).blk t).view.read (Elt Ideal) (rowsTimes (M := 50000) (K := 29) (N := 96) (φ₁ := .f32) (φ₂ := .f32) (V c main_arg0) (V c main_arg2)) := by
  show (cfg0.win 2).cut (grid0.coords t) ((dat0 V c).after 2 t) = _
  rw [after0_2]
  unfold out0_2
  rw [View.canon_unit_zero zeros]
  simp only [View.ld_unit_zero (S := S5000x29) zeros, View.ld_unit_zero (S := S29x96) zeros]
  obtain ⟨e00, e01, e10, e11, e20, e21⟩ := block_index t
  funext j
  obtain ⟨p, q, rfl⟩ : ∃ (p : Fin 5000) (q : Fin 96), j = ix2 p q := ⟨j 0, j 1, eq_ix2 j⟩
  show k0_pay1 (iblk0 V c 0 t) (iblk0 V c 1 t) (ix2 p q)
    = rowsTimes (M := 50000) (K := 29) (N := 96) (φ₁ := .f32) (φ₂ := .f32) (V c main_arg0) (V c main_arg2) (((cfg0.win 2).blk t).view.emb (ix2 p q))
  refine (tile_entry (iblk0 V c 0 t) (iblk0 V c 1 t) p q).trans ?_
  refine Finset.sum_congr rfl fun k _ => ?_
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 29 + 1 * k.val = k.val; omega
  have hr : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) ?_
    funext a; apply Fin.ext
    match a with
    | ⟨0, _⟩ => show win0_1.index t (0 : Fin 2) * 29 + 1 * k.val = k.val; omega
    | ⟨1, _⟩ => show win0_1.index t (1 : Fin 2) * 96 + 1 * q.val = win0_2.index t (1 : Fin 2) * 96 + 1 * q.val; omega
  rw [hl, hr]

/-- An index of the result lies in point t's tile iff its row is among the tile's 5000 rows (and its column among all). -/
theorem in_tile (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v32).slice (win0_2.rect t)).set ↔ _
  rw [View.set_slice_whole, Rect.mem_set_unit]
  exact Iff.rfl

/-- The ten tiles cover the result: row r is in point r / 5000's tile. -/
theorem covered (i : S50000x96.Idx) :
    ∃ t : Fin cfg0.N, (cfg0.win 2).flush t = true ∧ i ∈ ((cfg0.win 2).blk t).view.set := by
  have h0 : (i 0).val < 50000 := (i 0).isLt
  have h1 : (i 1).val < 96 := (i 1).isLt
  have hN : grid0.N = 10 := N_0
  have ht : (i 0).val / 5000 < cfg0.N := by show _ < grid0.N; omega
  obtain ⟨-, -, -, -, e20, e21⟩ := block_index ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [in_tile]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 96 ≤ (i 1).val
      ∧ (i 1).val < win0_2.index ⟨(i 0).val / 5000, ht⟩ (1 : Fin 2) * 96 + 96
    omega

/-- The array the call leaves is the product of its two operands as it found them. -/
theorem product (c : Dev nD) :
    (dat0 V c).arrAt 2 cfg0.N = rowsTimes (M := 50000) (K := 29) (N := 96) (φ₁ := .f32) (φ₂ := .f32) (V c main_arg0) (V c main_arg2) :=
  (dat0 V c).arrAt_eq_of_cover 2 _ (fun t _ => written V c t) covered

/-- And that product is the host's `dot_general` of the same two operands. -/
theorem product_eq_dot (c : Dev nD) :
    (dat0 V c).arrAt 2 cfg0.N
      = Host.dotGeneral (F := Ideal) (φ₁ := .f32) (φ₂ := .f32) Cert.ReferenceIdeal.dot_S50000x29_S29x96_S50000x96_1_0_0_1_n_n none (V c main_arg0) (V c main_arg2) :=
  (product V c).trans (dotGeneral_eq_rowsTimes Cert.ReferenceIdeal.Gen.dot_S50000x29_S29x96_S50000x96_1_0_0_1_n_n_wf none _ _).symm

/-- The same with the two operands' contents named. -/
theorem result (c : Dev nD) (l : FVec Ideal Cert.ReferenceIdeal.S50000x29 .f32) (r : FVec Ideal Cert.ReferenceIdeal.S29x96 .f32)
    (hl : V c main_arg0 = l) (hr : V c main_arg2 = r) :
    (dat0 V c).arrAt 2 cfg0.N = Host.dotGeneral (F := Ideal) Cert.ReferenceIdeal.dot_S50000x29_S29x96_S50000x96_1_0_0_1_n_n none l r := by
  subst hl hr
  exact product_eq_dot V c

end Cert.KernelIdeal.Dense0

end
-- ==== Proof.Dense1.lean ====
/-
  Layer 2's dense transform, read off the pipeline: the array the second pallas_call leaves.

  The call walks ten grid points; point t stages rows 5000·t … 5000·t + 4999 of the left operand (a 50000 × 96 array)
  and the whole right operand (96 × 128), multiplies them on the matrix unit into a zero accumulator — the shape cast of the left block to its own
  shape and the casts to bf16 on the way in are the identity on extended reals — and writes the 5000 × 128 tile back to the same rows of the
  result. So entry (r, q) of the result, which lies in point r / 5000's tile at row r % 5000, is
  ∑ k < 96, L (r, k) · R (k, q): the tiles are the restrictions of ONE function of the two operands, the plain
  matrix product, and the ten tiles cover the result. That function is what the host's `dot_general` computes.
-/
import proofs.«118886_j19361712570396_1_alg».proof.Proof.Gen.KernelIdeal.Frame
import proofs.«118886_j19361712570396_1_alg».proof.Proof.Gen.ReferenceIdeal
import proofs.«118886_j19361712570396_1_alg».proof.Proof.Product
import Idealize.ShloMosaic.Lib.Pipeline.Value

noncomputable section

open scoped BigOperators

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)
open Cert.Product

-- the buffers' contents when the call is entered (any contents: the call's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- One tile: the body's stored value at (p, q) is row p of the staged left block times column q of the right operand. -/
theorem tile_entry (x : Vec Ideal S5000x96 .f32) (w : Vec Ideal S96x128 .f32) (p : Fin 5000) (q : Fin 128) :
    k1_pay1 x w (ix2 p q) = ∑ k : Fin 96, x (ix2 p k) * w (ix2 k q) := by
  unfold k1_pay1
  rw [shapeCast_self]
  exact Cert.LibPlainProduct.matmul_zero_plain_apply dot_S5000x96_S96x128_S5000x128_1_0_0_1_n_n_wf none _ _ p q

/-- Where the three windows' blocks sit at grid point t: the left operand's and the result's at block row t, column
    block 0; the right operand's always at its one block. Decided over the ten points. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the product of the two operands as the call finds them. -/
theorem written (c : Dev nD) (t : Fin cfg1.N) :
    (dat1 V c).flushed 2 t
      = ((cfg1.win 2).blk t).view.read (Elt Ideal) (rowsTimes (M := 50000) (K := 96) (N := 128) (φ₁ := .f32) (φ₂ := .f32) (V c main_v49) (V c main_arg4)) := by
  show (cfg1.win 2).cut (grid1.coords t) ((dat1 V c).after 2 t) = _
  rw [after1_2]
  unfold out1_2
  rw [View.canon_unit_zero zeros]
  simp only [View.ld_unit_zero (S := S5000x96) zeros, View.ld_unit_zero (S := S96x128) zeros]
  obtain ⟨e00, e01, e10, e11, e20, e21⟩ := block_index t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = rowsTimes (M := 50000) (K := 96) (N := 128) (φ₁ := .f32) (φ₂ := .f32) (V c main_v49) (V c main_arg4) (((cfg1.win 2).blk t).view.emb (ix2 p q))
  refine (tile_entry (iblk1 V c 0 t) (iblk1 V c 1 t) p q).trans ?_
  refine Finset.sum_congr rfl fun k _ => ?_
  have hl : iblk1 V c 0 t (ix2 p k) = V c main_v49 (ix2 ((((cfg1.win 2).blk t).view.emb (ix2 p q)) 0) k) := by
    show V c main_v49 (((cfg1.win 0).blk t).view.emb (ix2 p k)) = _
    refine congrArg (V c main_v49) ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 96 + 1 * k.val = k.val; omega
  have hr : iblk1 V c 1 t (ix2 k q) = V c main_arg4 (ix2 k ((((cfg1.win 2).blk t).view.emb (ix2 p q)) 1)) := by
    show V c main_arg4 (((cfg1.win 1).blk t).view.emb (ix2 k q)) = _
    refine congrArg (V c main_arg4) ?_
    funext a; apply Fin.ext
    match a with
    | ⟨0, _⟩ => show win1_1.index t (0 : Fin 2) * 96 + 1 * k.val = k.val; omega
    | ⟨1, _⟩ => show win1_1.index t (1 : Fin 2) * 128 + 1 * q.val = win1_2.index t (1 : Fin 2) * 128 + 1 * q.val; omega
  rw [hl, hr]

/-- An index of the result lies in point t's tile iff its row is among the tile's 5000 rows (and its column among all). -/
theorem in_tile (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v50).slice (win1_2.rect t)).set ↔ _
  rw [View.set_slice_whole, Rect.mem_set_unit]
  exact Iff.rfl

/-- The ten tiles cover the result: row r is in point r / 5000's tile. -/
theorem covered (i : S50000x128.Idx) :
    ∃ t : Fin cfg1.N, (cfg1.win 2).flush t = true ∧ i ∈ ((cfg1.win 2).blk t).view.set := by
  have h0 : (i 0).val < 50000 := (i 0).isLt
  have h1 : (i 1).val < 128 := (i 1).isLt
  have hN : grid1.N = 10 := N_1
  have ht : (i 0).val / 5000 < cfg1.N := by show _ < grid1.N; omega
  obtain ⟨-, -, -, -, e20, e21⟩ := block_index ⟨(i 0).val / 5000, ht⟩
  have e20' : win1_2.index ⟨(i 0).val / 5000, ht⟩ (0 : Fin 2) = (i 0).val / 5000 := e20
  refine ⟨⟨(i 0).val / 5000, ht⟩, flush1_2 _, ?_⟩
  rw [in_tile]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- The array the call leaves is the product of its two operands as it found them. -/
theorem product (c : Dev nD) :
    (dat1 V c).arrAt 2 cfg1.N = rowsTimes (M := 50000) (K := 96) (N := 128) (φ₁ := .f32) (φ₂ := .f32) (V c main_v49) (V c main_arg4) :=
  (dat1 V c).arrAt_eq_of_cover 2 _ (fun t _ => written V c t) covered

/-- And that product is the host's `dot_general` of the same two operands. -/
theorem product_eq_dot (c : Dev nD) :
    (dat1 V c).arrAt 2 cfg1.N
      = Host.dotGeneral (F := Ideal) (φ₁ := .f32) (φ₂ := .f32) Cert.ReferenceIdeal.dot_S50000x96_S96x128_S50000x128_1_0_0_1_n_n none (V c main_v49) (V c main_arg4) :=
  (product V c).trans (dotGeneral_eq_rowsTimes Cert.ReferenceIdeal.Gen.dot_S50000x96_S96x128_S50000x128_1_0_0_1_n_n_wf none _ _).symm

/-- The same with the two operands' contents named. -/
theorem result (c : Dev nD) (l : FVec Ideal Cert.ReferenceIdeal.S50000x96 .f32) (r : FVec Ideal Cert.ReferenceIdeal.S96x128 .f32)
    (hl : V c main_v49 = l) (hr : V c main_arg4 = r) :
    (dat1 V c).arrAt 2 cfg1.N = Host.dotGeneral (F := Ideal) Cert.ReferenceIdeal.dot_S50000x96_S96x128_S50000x128_1_0_0_1_n_n none l r := by
  subst hl hr
  exact product_eq_dot V c

end Cert.KernelIdeal.Dense1

end
-- ==== Proof.Dense2.lean ====
/-
  Layer 3's dense transform, read off the pipeline: the array the third pallas_call leaves.

  The call walks ten grid points; point t stages rows 5000·t … 5000·t + 4999 of the left operand (a 50000 × 128 array)
  and the whole right operand (128 × 64), multiplies them on the matrix unit into a zero accumulator — the shape cast of the left block to its own
  shape and the casts to bf16 on the way in are the identity on extended reals — and writes the 5000 × 64 tile back to the same rows of the
  result. So entry (r, q) of the result, which lies in point r / 5000's tile at row r % 5000, is
  ∑ k < 128, L (r, k) · R (k, q): the tiles are the restrictions of ONE function of the two operands, the plain
  matrix product, and the ten tiles cover the result. That function is what the host's `dot_general` computes.
-/
import proofs.«118886_j19361712570396_1_alg».proof.Proof.Gen.KernelIdeal.Frame
import proofs.«118886_j19361712570396_1_alg».proof.Proof.Gen.ReferenceIdeal
import proofs.«118886_j19361712570396_1_alg».proof.Proof.Product
import Idealize.ShloMosaic.Lib.Pipeline.Value

noncomputable section

open scoped BigOperators

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)
open Cert.Product

-- the buffers' contents when the call is entered (any contents: the call's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- One tile: the body's stored value at (p, q) is row p of the staged left block times column q of the right operand. -/
theorem tile_entry (x : Vec Ideal S5000x128 .f32) (w : Vec Ideal S128x64 .f32) (p : Fin 5000) (q : Fin 64) :
    k2_pay1 x w (ix2 p q) = ∑ k : Fin 128, x (ix2 p k) * w (ix2 k q) := by
  unfold k2_pay1
  rw [shapeCast_self]
  exact Cert.LibPlainProduct.matmul_zero_plain_apply dot_S5000x128_S128x64_S5000x64_1_0_0_1_n_n_wf none _ _ p q

/-- Where the three windows' blocks sit at grid point t: the left operand's and the result's at block row t, column
    block 0; the right operand's always at its one block. Decided over the ten points. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the product of the two operands as the call finds them. -/
theorem written (c : Dev nD) (t : Fin cfg2.N) :
    (dat2 V c).flushed 2 t
      = ((cfg2.win 2).blk t).view.read (Elt Ideal) (rowsTimes (M := 50000) (K := 128) (N := 64) (φ₁ := .f32) (φ₂ := .f32) (V c main_v66) (V c main_arg6)) := by
  show (cfg2.win 2).cut (grid2.coords t) ((dat2 V c).after 2 t) = _
  rw [after2_2]
  unfold out2_2
  rw [View.canon_unit_zero zeros]
  simp only [View.ld_unit_zero (S := S5000x128) zeros, View.ld_unit_zero (S := S128x64) zeros]
  obtain ⟨e00, e01, e10, e11, e20, e21⟩ := block_index t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = rowsTimes (M := 50000) (K := 128) (N := 64) (φ₁ := .f32) (φ₂ := .f32) (V c main_v66) (V c main_arg6) (((cfg2.win 2).blk t).view.emb (ix2 p q))
  refine (tile_entry (iblk2 V c 0 t) (iblk2 V c 1 t) p q).trans ?_
  refine Finset.sum_congr rfl fun k _ => ?_
  have hl : iblk2 V c 0 t (ix2 p k) = V c main_v66 (ix2 ((((cfg2.win 2).blk t).view.emb (ix2 p q)) 0) k) := by
    show V c main_v66 (((cfg2.win 0).blk t).view.emb (ix2 p k)) = _
    refine congrArg (V c main_v66) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hr : iblk2 V c 1 t (ix2 k q) = V c main_arg6 (ix2 k ((((cfg2.win 2).blk t).view.emb (ix2 p q)) 1)) := by
    show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hl, hr]

/-- An index of the result lies in point t's tile iff its row is among the tile's 5000 rows (and its column among all). -/
theorem in_tile (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v67).slice (win2_2.rect t)).set ↔ _
  rw [View.set_slice_whole, Rect.mem_set_unit]
  exact Iff.rfl

/-- The ten tiles cover the result: row r is in point r / 5000's tile. -/
theorem covered (i : S50000x64.Idx) :
    ∃ t : Fin cfg2.N, (cfg2.win 2).flush t = true ∧ i ∈ ((cfg2.win 2).blk t).view.set := by
  have h0 : (i 0).val < 50000 := (i 0).isLt
  have h1 : (i 1).val < 64 := (i 1).isLt
  have hN : grid2.N = 10 := N_2
  have ht : (i 0).val / 5000 < cfg2.N := by show _ < grid2.N; omega
  obtain ⟨-, -, -, -, e20, e21⟩ := block_index ⟨(i 0).val / 5000, ht⟩
  have e20' : win2_2.index ⟨(i 0).val / 5000, ht⟩ (0 : Fin 2) = (i 0).val / 5000 := e20
  refine ⟨⟨(i 0).val / 5000, ht⟩, flush2_2 _, ?_⟩
  rw [in_tile]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    omega

/-- The array the call leaves is the product of its two operands as it found them. -/
theorem product (c : Dev nD) :
    (dat2 V c).arrAt 2 cfg2.N = rowsTimes (M := 50000) (K := 128) (N := 64) (φ₁ := .f32) (φ₂ := .f32) (V c main_v66) (V c main_arg6) :=
  (dat2 V c).arrAt_eq_of_cover 2 _ (fun t _ => written V c t) covered

/-- And that product is the host's `dot_general` of the same two operands. -/
theorem product_eq_dot (c : Dev nD) :
    (dat2 V c).arrAt 2 cfg2.N
      = Host.dotGeneral (F := Ideal) (φ₁ := .f32) (φ₂ := .f32) Cert.ReferenceIdeal.dot_S50000x128_S128x64_S50000x64_1_0_0_1_n_n none (V c main_v66) (V c main_arg6) :=
  (product V c).trans (dotGeneral_eq_rowsTimes Cert.ReferenceIdeal.Gen.dot_S50000x128_S128x64_S50000x64_1_0_0_1_n_n_wf none _ _).symm

/-- The same with the two operands' contents named. -/
theorem result (c : Dev nD) (l : FVec Ideal Cert.ReferenceIdeal.S50000x128 .f32) (r : FVec Ideal Cert.ReferenceIdeal.S128x64 .f32)
    (hl : V c main_v66 = l) (hr : V c main_arg6 = r) :
    (dat2 V c).arrAt 2 cfg2.N = Host.dotGeneral (F := Ideal) Cert.ReferenceIdeal.dot_S50000x128_S128x64_S50000x64_1_0_0_1_n_n none l r := by
  subst hl hr
  exact product_eq_dot V c

end Cert.KernelIdeal.Dense2

end
-- ==== Proof.Dense3.lean ====
/-
  Layer 4's dense transform, read off the pipeline: the array the fourth pallas_call leaves.

  The call walks ten grid points; point t stages rows 5000·t … 5000·t + 4999 of the left operand (a 50000 × 64 array)
  and the whole right operand (64 × 32), multiplies them on the matrix unit into a zero accumulator — the shape cast of the left block to its own
  shape and the casts to bf16 on the way in are the identity on extended reals — and writes the 5000 × 32 tile back to the same rows of the
  result. So entry (r, q) of the result, which lies in point r / 5000's tile at row r % 5000, is
  ∑ k < 64, L (r, k) · R (k, q): the tiles are the restrictions of ONE function of the two operands, the plain
  matrix product, and the ten tiles cover the result. That function is what the host's `dot_general` computes.
-/
import proofs.«118886_j19361712570396_1_alg».proof.Proof.Gen.KernelIdeal.Frame
import proofs.«118886_j19361712570396_1_alg».proof.Proof.Gen.ReferenceIdeal
import proofs.«118886_j19361712570396_1_alg».proof.Proof.Product
import Idealize.ShloMosaic.Lib.Pipeline.Value

noncomputable section

open scoped BigOperators

namespace Cert.KernelIdeal.Dense3

open Cert.KernelIdeal Cert.KernelIdeal.Gen Idealize.ShloMosaic Idealize.ShloMosaic.TcCoe Idealize.SL.Sem
open Idealize.ShloMosaic.ValueIdx
open Idealize.ShloMosaic.Pipeline (Dat)
open Cert.Product

-- the buffers' contents when the call is entered (any contents: the call's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- One tile: the body's stored value at (p, q) is row p of the staged left block times column q of the right operand. -/
theorem tile_entry (x : Vec Ideal S5000x64 .f32) (w : Vec Ideal S64x32 .f32) (p : Fin 5000) (q : Fin 32) :
    k3_pay1 x w (ix2 p q) = ∑ k : Fin 64, x (ix2 p k) * w (ix2 k q) := by
  unfold k3_pay1
  rw [shapeCast_self]
  exact Cert.LibPlainProduct.matmul_zero_plain_apply dot_S5000x64_S64x32_S5000x32_1_0_0_1_n_n_wf none _ _ p q

/-- Where the three windows' blocks sit at grid point t: the left operand's and the result's at block row t, column
    block 0; the right operand's always at its one block. Decided over the ten points. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the product of the two operands as the call finds them. -/
theorem written (c : Dev nD) (t : Fin cfg3.N) :
    (dat3 V c).flushed 2 t
      = ((cfg3.win 2).blk t).view.read (Elt Ideal) (rowsTimes (M := 50000) (K := 64) (N := 32) (φ₁ := .f32) (φ₂ := .f32) (V c main_v83) (V c main_arg8)) := by
  show (cfg3.win 2).cut (grid3.coords t) ((dat3 V c).after 2 t) = _
  rw [after3_2]
  unfold out3_2
  rw [View.canon_unit_zero zeros]
  simp only [View.ld_unit_zero (S := S5000x64) zeros, View.ld_unit_zero (S := S64x32) zeros]
  obtain ⟨e00, e01, e10, e11, e20, e21⟩ := block_index t
  funext j
  obtain ⟨p, q, rfl⟩ : ∃ (p : Fin 5000) (q : Fin 32), j = ix2 p q := ⟨j 0, j 1, eq_ix2 j⟩
  show k3_pay1 (iblk3 V c 0 t) (iblk3 V c 1 t) (ix2 p q)
    = rowsTimes (M := 50000) (K := 64) (N := 32) (φ₁ := .f32) (φ₂ := .f32) (V c main_v83) (V c main_arg8) (((cfg3.win 2).blk t).view.emb (ix2 p q))
  refine (tile_entry (iblk3 V c 0 t) (iblk3 V c 1 t) p q).trans ?_
  refine Finset.sum_congr rfl fun k _ => ?_
  have hl : iblk3 V c 0 t (ix2 p k) = V c main_v83 (ix2 ((((cfg3.win 2).blk t).view.emb (ix2 p q)) 0) k) := by
    show V c main_v83 (((cfg3.win 0).blk t).view.emb (ix2 p k)) = _
    refine congrArg (V c main_v83) ?_
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  have hr : iblk3 V c 1 t (ix2 k q) = V c main_arg8 (ix2 k ((((cfg3.win 2).blk t).view.emb (ix2 p q)) 1)) := by
    show V c main_arg8 (((cfg3.win 1).blk t).view.emb (ix2 k q)) = _
    refine congrArg (V c main_arg8) ?_
    funext a; apply Fin.ext
    match a with
    | ⟨0, _⟩ => show win3_1.index t (0 : Fin 2) * 64 + 1 * k.val = k.val; omega
    | ⟨1, _⟩ => show win3_1.index t (1 : Fin 2) * 32 + 1 * q.val = win3_2.index t (1 : Fin 2) * 32 + 1 * q.val; omega
  rw [hl, hr]

/-- An index of the result lies in point t's tile iff its row is among the tile's 5000 rows (and its column among all). -/
theorem in_tile (t : Fin cfg3.N) (i : S50000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v84).slice (win3_2.rect t)).set ↔ _
  rw [View.set_slice_whole, Rect.mem_set_unit]
  exact Iff.rfl

/-- The ten tiles cover the result: row r is in point r / 5000's tile. -/
theorem covered (i : S50000x32.Idx) :
    ∃ t : Fin cfg3.N, (cfg3.win 2).flush t = true ∧ i ∈ ((cfg3.win 2).blk t).view.set := by
  have h0 : (i 0).val < 50000 := (i 0).isLt
  have h1 : (i 1).val < 32 := (i 1).isLt
  have hN : grid3.N = 10 := N_3
  have ht : (i 0).val / 5000 < cfg3.N := by show _ < grid3.N; omega
  obtain ⟨-, -, -, -, e20, e21⟩ := block_index ⟨(i 0).val / 5000, ht⟩
  have e20' : win3_2.index ⟨(i 0).val / 5000, ht⟩ (0 : Fin 2) = (i 0).val / 5000 := e20
  refine ⟨⟨(i 0).val / 5000, ht⟩, flush3_2 _, ?_⟩
  rw [in_tile]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 32 ≤ (i 1).val
      ∧ (i 1).val < win3_2.index ⟨(i 0).val / 5000, ht⟩ (1 : Fin 2) * 32 + 32
    omega

/-- The array the call leaves is the product of its two operands as it found them. -/
theorem product (c : Dev nD) :
    (dat3 V c).arrAt 2 cfg3.N = rowsTimes (M := 50000) (K := 64) (N := 32) (φ₁ := .f32) (φ₂ := .f32) (V c main_v83) (V c main_arg8) :=
  (dat3 V c).arrAt_eq_of_cover 2 _ (fun t _ => written V c t) covered

/-- And that product is the host's `dot_general` of the same two operands. -/
theorem product_eq_dot (c : Dev nD) :
    (dat3 V c).arrAt 2 cfg3.N
      = Host.dotGeneral (F := Ideal) (φ₁ := .f32) (φ₂ := .f32) Cert.ReferenceIdeal.dot_S50000x64_S64x32_S50000x32_1_0_0_1_n_n none (V c main_v83) (V c main_arg8) :=
  (product V c).trans (dotGeneral_eq_rowsTimes Cert.ReferenceIdeal.Gen.dot_S50000x64_S64x32_S50000x32_1_0_0_1_n_n_wf none _ _).symm

/-- The same with the two operands' contents named. -/
theorem result (c : Dev nD) (l : FVec Ideal Cert.ReferenceIdeal.S50000x64 .f32) (r : FVec Ideal Cert.ReferenceIdeal.S64x32 .f32)
    (hl : V c main_v83 = l) (hr : V c main_arg8 = r) :
    (dat3 V c).arrAt 2 cfg3.N = Host.dotGeneral (F := Ideal) Cert.ReferenceIdeal.dot_S50000x64_S64x32_S50000x32_1_0_0_1_n_n none l r := by
  subst hl hr
  exact product_eq_dot V c

end Cert.KernelIdeal.Dense3

end
-- ==== Proof.Result.lean ====
/-
  The kernel program's result as a function of its arguments.

  The program's fold through its twelve segments is followed from the launch memory to the return, one segment at a
  time. What every layer shares — the edges' sources and targets with their self loops, the edge weights, the biases
  and weights — is computed (or simply found) before the first pallas_call and is written by nothing afterwards.
  Each pallas_call leaves in its result array the matrix product of the array the stretch before it left and that
  layer's weight, which is what the reference's `dot_general` makes of the same two arrays; each host stretch after
  it gathers those rows along the edges, weights them, adds them up per target node and adds the bias. Stage by
  stage the buffers hold the reference's stages of the same arguments, and the last one is the result.
-/
import proofs.«118886_j19361712570396_1_alg».proof.Proof.Gen.KernelIdeal.Frame
import proofs.«118886_j19361712570396_1_alg».proof.Proof.Stages
import proofs.«118886_j19361712570396_1_alg».proof.Proof.Dense0
import proofs.«118886_j19361712570396_1_alg».proof.Proof.Dense1
import proofs.«118886_j19361712570396_1_alg».proof.Proof.Dense2
import proofs.«118886_j19361712570396_1_alg».proof.Proof.Dense3

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal.ReadP Cert.KernelIdeal.Stages

variable (m : (ℓ : Loc nD τ sig) → Buf (Elt Ideal) ℓ) (ρ : Dev nD → PrngReg) (c : Dev nD)

/-! ## Up to the first pallas_call -/

/-- The weight's factor per node after the outlined `where`. -/
theorem factor2 : W2 m ρ c (Proc.devRef .tc main_v16) = val_main_v16 (F := Ideal) (m ((c : Thread nD τ).loc main_arg1)) :=
  graph_b (W1 m ρ c) (m ((c : Thread nD τ).loc main_arg1)) (graph_a (W0 m ρ c) (m ((c : Thread nD τ).loc main_arg1)) rfl).2.2.1 (graph_a (W0 m ρ c) (m ((c : Thread nD τ).loc main_arg1)) rfl).2.2.2.1 (graph_a (W0 m ρ c) (m ((c : Thread nD τ).loc main_arg1)) rfl).2.2.2.2

/-- What the layers share, when the first pallas_call is entered. -/
theorem shared3 : Shared (W3 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ⟨(kept_0_2 (W2 m ρ c)).1.trans ((kept_0_1 (W1 m ρ c)).1.trans (graph_a (W0 m ρ c) (m ((c : Thread nD τ).loc main_arg1)) rfl).1),
   (kept_0_2 (W2 m ρ c)).2.trans ((kept_0_1 (W1 m ρ c)).2.trans (graph_a (W0 m ρ c) (m ((c : Thread nD τ).loc main_arg1)) rfl).2.1),
   graph_c (W2 m ρ c) (m ((c : Thread nD τ).loc main_arg1)) ((kept_0_1 (W1 m ρ c)).1.trans (graph_a (W0 m ρ c) (m ((c : Thread nD τ).loc main_arg1)) rfl).1) ((kept_0_1 (W1 m ρ c)).2.trans (graph_a (W0 m ρ c) (m ((c : Thread nD τ).loc main_arg1)) rfl).2.1) (factor2 m ρ c),
   (args_0 (W0 m ρ c)).2.2.1,
   (args_0 (W0 m ρ c)).2.2.2.1,
   (args_0 (W0 m ρ c)).2.2.2.2.1,
   (args_0 (W0 m ρ c)).2.2.2.2.2.1,
   (args_0 (W0 m ρ c)).2.2.2.2.2.2.1,
   (args_0 (W0 m ρ c)).2.2.2.2.2.2.2.1,
   (args_0 (W0 m ρ c)).2.2.2.2.2.2.2.2⟩

/-! ## Layer 1 -/

/-- The first pallas_call's result: the node features times the first weight. -/
theorem dense1 : W4 m ρ c (Proc.devRef .tc main_v32) = val_main_v32 (F := Ideal) (m ((c : Thread nD τ).loc main_arg0)) (m ((c : Thread nD τ).loc main_arg2)) :=
  (W4_arr m ρ c 2).trans (Dense0.result (V3 m ρ) c (m ((c : Thread nD τ).loc main_arg0)) (m ((c : Thread nD τ).loc main_arg2)) (args_0 (W0 m ρ c)).1 (args_0 (W0 m ρ c)).2.1)

/-- The first pallas_call writes only its result array: what the layers share is kept across it. -/
theorem shared4 (h : Shared (W3 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : Shared (W4 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ⟨(W4_of_ne m ρ c main_v3 (by decide)).trans h.row,
   (W4_of_ne m ρ c main_v6 (by decide)).trans h.col,
   (W4_of_ne m ρ c main_v31 (by decide)).trans h.norm,
   (W4_of_ne m ρ c main_arg3 (by decide)).trans h.b1,
   (W4_of_ne m ρ c main_arg4 (by decide)).trans h.w2,
   (W4_of_ne m ρ c main_arg5 (by decide)).trans h.b2,
   (W4_of_ne m ρ c main_arg6 (by decide)).trans h.w3,
   (W4_of_ne m ρ c main_arg7 (by decide)).trans h.b3,
   (W4_of_ne m ρ c main_arg8 (by decide)).trans h.w4,
   (W4_of_ne m ρ c main_arg9 (by decide)).trans h.b4⟩

/-- Layer 1's output before and after the rectifier. -/
theorem out1 : W6 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) :=
  relu1 (W5 m ρ c) (m ((c : Thread nD τ).loc main_arg0)) (m ((c : Thread nD τ).loc main_arg1)) (m ((c : Thread nD τ).loc main_arg2)) (m ((c : Thread nD τ).loc main_arg3))
    (layer1 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (dense1 m ρ c) (shared4 m ρ c (shared3 m ρ c)))

theorem shared6 : Shared (W6 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := ((shared4 m ρ c (shared3 m ρ c)).hostOps1).hostOps1_1

/-! ## Layer 2 -/

theorem dense2 : W7 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans (Dense1.result (V6 m ρ) c _ (m ((c : Thread nD τ).loc main_arg4)) (out1 m ρ c) (shared6 m ρ c).w2)

/-- The second pallas_call writes only its result array: what the layers share is kept across it. -/
theorem shared7 (h : Shared (W6 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : Shared (W7 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ⟨(W7_of_ne m ρ c main_v3 (by decide)).trans h.row,
   (W7_of_ne m ρ c main_v6 (by decide)).trans h.col,
   (W7_of_ne m ρ c main_v31 (by decide)).trans h.norm,
   (W7_of_ne m ρ c main_arg3 (by decide)).trans h.b1,
   ((W7_arr m ρ c 1).trans (((dat1 (V6 m ρ) c).arrAt_in 1 rfl _).trans (A_eq1 (V6 m ρ) c 1))).trans h.w2,
   (W7_of_ne m ρ c main_arg5 (by decide)).trans h.b2,
   (W7_of_ne m ρ c main_arg6 (by decide)).trans h.w3,
   (W7_of_ne m ρ c main_arg7 (by decide)).trans h.b3,
   (W7_of_ne m ρ c main_arg8 (by decide)).trans h.w4,
   (W7_of_ne m ρ c main_arg9 (by decide)).trans h.b4⟩

theorem out2 : W8 m ρ c (Proc.devRef .tc main_v66) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layer2 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (dense2 m ρ c) (shared7 m ρ c (shared6 m ρ c))

theorem shared8 : Shared (W8 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (shared7 m ρ c (shared6 m ρ c)).hostOps2

/-! ## Layer 3 -/

theorem dense3 : W9 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans (Dense2.result (V8 m ρ) c _ (m ((c : Thread nD τ).loc main_arg6)) (out2 m ρ c) (shared8 m ρ c).w3)

/-- The third pallas_call writes only its result array: what the layers share is kept across it. -/
theorem shared9 (h : Shared (W8 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : Shared (W9 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ⟨(W9_of_ne m ρ c main_v3 (by decide)).trans h.row,
   (W9_of_ne m ρ c main_v6 (by decide)).trans h.col,
   (W9_of_ne m ρ c main_v31 (by decide)).trans h.norm,
   (W9_of_ne m ρ c main_arg3 (by decide)).trans h.b1,
   (W9_of_ne m ρ c main_arg4 (by decide)).trans h.w2,
   (W9_of_ne m ρ c main_arg5 (by decide)).trans h.b2,
   ((W9_arr m ρ c 1).trans (((dat2 (V8 m ρ) c).arrAt_in 1 rfl _).trans (A_eq2 (V8 m ρ) c 1))).trans h.w3,
   (W9_of_ne m ρ c main_arg7 (by decide)).trans h.b3,
   (W9_of_ne m ρ c main_arg8 (by decide)).trans h.w4,
   (W9_of_ne m ρ c main_arg9 (by decide)).trans h.b4⟩

theorem out3 : W10 m ρ c (Proc.devRef .tc main_v83) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  layer3 (W9 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (dense3 m ρ c) (shared9 m ρ c (shared8 m ρ c))

theorem shared10 : Shared (W10 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (shared9 m ρ c (shared8 m ρ c)).hostOps3

/-! ## Layer 4 -/

theorem dense4 : W11 m ρ c (Proc.devRef .tc main_v84) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W11_arr m ρ c 2).trans (Dense3.result (V10 m ρ) c _ (m ((c : Thread nD τ).loc main_arg8)) (out3 m ρ c) (shared10 m ρ c).w4)

/-- The fourth pallas_call writes only its result array: what the layers share is kept across it. -/
theorem shared11 (h : Shared (W10 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : Shared (W11 m ρ c) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ⟨(W11_of_ne m ρ c main_v3 (by decide)).trans h.row,
   (W11_of_ne m ρ c main_v6 (by decide)).trans h.col,
   (W11_of_ne m ρ c main_v31 (by decide)).trans h.norm,
   (W11_of_ne m ρ c main_arg3 (by decide)).trans h.b1,
   (W11_of_ne m ρ c main_arg4 (by decide)).trans h.w2,
   (W11_of_ne m ρ c main_arg5 (by decide)).trans h.b2,
   (W11_of_ne m ρ c main_arg6 (by decide)).trans h.w3,
   (W11_of_ne m ρ c main_arg7 (by decide)).trans h.b3,
   ((W11_arr m ρ c 1).trans (((dat3 (V10 m ρ) c).arrAt_in 1 rfl _).trans (A_eq3 (V10 m ρ) c 1))).trans h.w4,
   (W11_of_ne m ρ c main_arg9 (by decide)).trans h.b4⟩

/-- The result buffer at the return holds the reference's last stage of the ten arguments. -/
theorem out4 : W12 m ρ c (Proc.devRef .tc main_v100) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  layer4 (W11 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (dense4 m ρ c) (shared11 m ρ c (shared10 m ρ c))

end Cert.KernelIdeal.Result

end
-- ==== Proof.lean ====
/-
  The certificate of a four-layer graph convolution: the kernel program against its jnp reference, equal over the
  extended reals.

  Both programs are the same host code around four dense transforms h ↦ h · W: the edge list is extended by one
  self loop per node, the degree of a node is the number of edges that end in it (a scatter-add of ones), an edge
  (r → s) weighs dis(r) · dis(s) with dis = rsqrt(max(deg, 1)) where deg > 0 and 0 elsewhere, and a layer maps
  h to  Σ_{edges into s} weight · (h · W)(source) + bias  (followed by max(·, 0) after the first layer). The two
  programs differ in the dense transform only: the reference's is one `dot_general` over all 50000 rows; the kernel
  program's is a pallas_call that walks the rows in ten tiles of 5000, casts the tile and the weight to bf16 — the
  identity on extended reals — and multiplies them on the matrix unit into a zero accumulator. Entry (r, q) of either
  is the same finite sum Σ_k h(r, k) · W(k, q), term for term in the same order, so no law of the extended reals beyond
  reflexivity is used and the precondition (finite inputs) is never opened.

  The proof. `Dense0 … Dense3`: the array each pallas_call leaves is that product of the two arrays it finds (the ten
  tiles are restrictions of one function and cover the result). `Stages`: each host stretch of the kernel program,
  read at the buffers later code uses, is the reference's stage function of what it finds. `Result`: so, segment by
  segment, the kernel program's result buffer ends holding the reference's last stage of the ten arguments.
  `RunNamed`: the kernel program's run — it terminates without a fault with every buffer at the segments' fold.
  The reference's run and its stages are generated modules (`RefRun`, `RefRead`).
  The three frames: the two kernel programs' are the generated frame certificates, the reference's is its run with the
  result forgotten. The idealized kernel program is the printed one read at the ideal values, nothing rewritten, so
  `preserves` has nothing to state.
-/
import proofs.«118886_j19361712570396_1_alg».proof.Defs
import proofs.«118886_j19361712570396_1_alg».proof.Proof.Gen.Kernel
import proofs.«118886_j19361712570396_1_alg».proof.Proof.Gen.Kernel.Frame
import proofs.«118886_j19361712570396_1_alg».proof.Proof.Gen.KernelIdeal
import proofs.«118886_j19361712570396_1_alg».proof.Proof.Gen.KernelIdeal.Frame
import proofs.«118886_j19361712570396_1_alg».proof.Proof.Gen.ReferenceIdeal
import proofs.«118886_j19361712570396_1_alg».proof.Proof.Gen.Pre_finite_inputs
import proofs.«118886_j19361712570396_1_alg».proof.Proof.RefRun
import proofs.«118886_j19361712570396_1_alg».proof.Proof.RefRead
import proofs.«118886_j19361712570396_1_alg».proof.Proof.RunNamed
import proofs.«118886_j19361712570396_1_alg».proof.Proof.Result
import Idealize.ShloMosaic.Adequacy
import Idealize.ShloMosaic.Init

set_option maxRecDepth 16384

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-! ## The two results are one function of the arguments -/

/-- The kernel program's run with its result named: the reference's last stage of the ten arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v100)
          = Cert.ReferenceIdeal.ReadP.val_main_v100 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  Cert.KernelIdeal.Named.run m ρ fun s h c =>
    ⟨(h c _ Cert.KernelIdeal.Named.mem_v100).trans (Cert.KernelIdeal.Result.out4 m ρ c),
     (h c _ (Cert.KernelIdeal.Gen.mem_uc Cert.KernelIdeal.main_arg0 (by decide))).trans (Cert.KernelIdeal.Gen.W12_main_arg0 m ρ c),
     (h c _ (Cert.KernelIdeal.Gen.mem_uc Cert.KernelIdeal.main_arg1 (by decide))).trans (Cert.KernelIdeal.Gen.W12_main_arg1 m ρ c),
     (h c _ (Cert.KernelIdeal.Gen.mem_uc Cert.KernelIdeal.main_arg2 (by decide))).trans (Cert.KernelIdeal.Gen.W12_main_arg2 m ρ c),
     (h c _ (Cert.KernelIdeal.Gen.mem_uc Cert.KernelIdeal.main_arg3 (by decide))).trans (Cert.KernelIdeal.Gen.W12_main_arg3 m ρ c),
     (h c _ (Cert.KernelIdeal.Gen.mem_uc Cert.KernelIdeal.main_arg4 (by decide))).trans (Cert.KernelIdeal.Gen.W12_main_arg4 m ρ c),
     (h c _ (Cert.KernelIdeal.Gen.mem_uc Cert.KernelIdeal.main_arg5 (by decide))).trans (Cert.KernelIdeal.Gen.W12_main_arg5 m ρ c),
     (h c _ (Cert.KernelIdeal.Gen.mem_uc Cert.KernelIdeal.main_arg6 (by decide))).trans (Cert.KernelIdeal.Gen.W12_main_arg6 m ρ c),
     (h c _ (Cert.KernelIdeal.Gen.mem_uc Cert.KernelIdeal.main_arg7 (by decide))).trans (Cert.KernelIdeal.Gen.W12_main_arg7 m ρ c),
     (h c _ (Cert.KernelIdeal.Gen.mem_uc Cert.KernelIdeal.main_arg8 (by decide))).trans (Cert.KernelIdeal.Gen.W12_main_arg8 m ρ c),
     (h c _ (Cert.KernelIdeal.Gen.mem_uc Cert.KernelIdeal.main_arg9 (by decide))).trans (Cert.KernelIdeal.Gen.W12_main_arg9 m ρ c)⟩

/-- From memories that agree on the arguments both programs end with that one function of them in the result. -/
theorem algebraic : Cert.algebraic_KernelIdeal_ReferenceIdeal := by
  intro m ρ m' ρ' _ hagree
  refine ⟨fun c => Cert.ReferenceIdeal.ReadP.val_main_v100 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v100_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
